-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x64 : Shape := ⟨2, ![512, 64]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S65536x512 .f32) (main_arg1 : FVec F S512x64 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  main_v8
-- ==== Kernel.lean ====
abbrev S65536x512 : Shape := ⟨2, ![65536, 512]⟩
abbrev S512x64 : Shape := ⟨2, ![512, 64]⟩
abbrev S32768x1024 : Shape := ⟨2, ![32768, 1024]⟩
abbrev S_ : Shape := ⟨0, ![]⟩
abbrev S512x128 : Shape := ⟨2, ![512, 128]⟩
abbrev S1024x128 : Shape := ⟨2, ![1024, 128]⟩
abbrev S32768x128 : Shape := ⟨2, ![32768, 128]⟩
abbrev S2048x1024 : Shape := ⟨2, ![2048, 1024]⟩
abbrev S2048x128 : Shape := ⟨2, ![2048, 128]⟩
abbrev S65536x64 : Shape := ⟨2, ![65536, 64]⟩

abbrev nBuf : Space → Nat
  | .hbm => 11
  | .vmem => 5
  | .smem => 0
  | _ => 0

abbrev bufTy : (tb : Table) → Fin (tcTables nBuf tb) → BufTy
  | .hbm, ⟨0, _⟩ => ⟨S65536x512, .f32⟩
  | .hbm, ⟨1, _⟩ => ⟨S512x64, .f32⟩
  | .hbm, ⟨2, _⟩ => ⟨S32768x1024, .f32⟩
  | .hbm, ⟨3, _⟩ => ⟨S_, .f32⟩
  | .hbm, ⟨4, _⟩ => ⟨S512x64, .f32⟩
  | .hbm, ⟨5, _⟩ => ⟨S512x128, .f32⟩
  | .hbm, ⟨6, _⟩ => ⟨S512x128, .f32⟩
  | .hbm, ⟨7, _⟩ => ⟨S1024x128, .f32⟩
  | .hbm, ⟨8, _⟩ => ⟨S1024x128, .bf16⟩
  | .hbm, ⟨9, _⟩ => ⟨S32768x128, .f32⟩
  | .hbm, ⟨10, _⟩ => ⟨S65536x64, .f32⟩
  | .local _ .vmem, ⟨0, _⟩ => ⟨S2048x1024, .f32⟩
  | .local _ .vmem, ⟨1, _⟩ => ⟨S2048x1024, .f32⟩
  | .local _ .vmem, ⟨2, _⟩ => ⟨S1024x128, .bf16⟩
  | .local _ .vmem, ⟨3, _⟩ => ⟨S2048x128, .f32⟩
  | .local _ .vmem, ⟨4, _⟩ => ⟨S2048x128, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S65536x512_S32768x1024 : S65536x512.ShapeCasts S32768x1024
  bcast_S_S512x64 : S_.BroadcastsInDim S512x64 (![] : Fin 0 → Fin S512x64.rank)
  concatenates_S512x64_S512x64_S512x128_d1 : Shape.Concatenates [S512x64, S512x64] S512x128 1
  concatenates_S512x128_S512x128_S1024x128_d0 : Shape.Concatenates [S512x128, S512x128] S1024x128 0
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S32768x128_S65536x64 : S32768x128.ShapeCasts S65536x64
  dot_S2048x1024_S1024x128_S2048x128_1_0_0_1_n_n_wf : DotDims.WF S2048x1024 S1024x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S32768x128.size a
  hwx0_2 : ∀ i : grid0.Coords, EltTy.bits .f32 = 32 ∨ (Rect.block (s := S32768x128) S2048x128.size (cc0_transform_2 i) (hinb0_2 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x64 : Shape := ⟨2, ![512, 64]⟩
abbrev S65536x64 : Shape := ⟨2, ![65536, 64]⟩

abbrev nBuf : Space → Nat
  | .hbm => 3
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x64, .f32⟩
  | .hbm, ⟨2, _⟩ => ⟨S65536x64, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S65536x512_S512x64_S65536x64_1_0_0_1_n_n_wf : DotDims.WF S65536x512 S512x64 S65536x64 [1] [0] [0] [1] [] []

variable [Facts₀]

def dot_S65536x512_S512x64_S65536x64_1_0_0_1_n_n : DotDims S65536x512 S512x64 S65536x64 where
  lhsContracting := [1]
  rhsContracting := [0]
  lhsNonContracting := [0]
  rhsNonContracting := [1]
  lhsBatch := []
  rhsBatch := []
  wf := dot_S65536x512_S512x64_S65536x64_1_0_0_1_n_n_wf

class Facts : Prop extends Facts₀ where

variable [Facts]
-- ==== Proof.BlockProduct.lean ====
/-
  One grid point's block product, read entry by entry.

  At a grid point the kernel body loads a 2048 x 1024 block `A` of the folded input and the whole 1024 x 128 folded
  weight `B`, rounds `A` to bf16 (the identity on the extended reals) and stores the matrix product `A · B` taken into a
  zero accumulator. This module says what that stored block is at an entry `(p, q)`: the plain sum over the 1024
  contraction positions `k` of `A (p, k) · B (k, q)`.
-/
import proofs.«100829_j57844619543085_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.ValueIdx

/-- The left operand's row is the output row. -/
theorem lhs_row (i : S2048x128.Idx) (q : dot_S2048x1024_S1024x128_S2048x128_1_0_0_1_n_n.contr.Idx) :
    (dot_S2048x1024_S1024x128_S2048x128_1_0_0_1_n_n.lhsIdx i q 0).val = (i 0).val := by
  unfold DotDims.lhsIdx
  rw [dif_neg (show ¬(0 : Fin S2048x1024.rank) ∈ dot_S2048x1024_S1024x128_S2048x128_1_0_0_1_n_n.lhsBatch by decide), dif_pos (show (0 : Fin S2048x1024.rank) ∈ dot_S2048x1024_S1024x128_S2048x128_1_0_0_1_n_n.lhsNonContracting by decide)]
  rfl

/-- The left operand's column is the contraction position. -/
theorem lhs_col (i : S2048x128.Idx) (q : dot_S2048x1024_S1024x128_S2048x128_1_0_0_1_n_n.contr.Idx) :
    (dot_S2048x1024_S1024x128_S2048x128_1_0_0_1_n_n.lhsIdx i q 1).val = (q ⟨0, by decide⟩).val :=
  dot_S2048x1024_S1024x128_S2048x128_1_0_0_1_n_n.lhsIdx_val_of_single rfl i q

/-- The right operand's row is the contraction position. -/
theorem rhs_row (i : S2048x128.Idx) (q : dot_S2048x1024_S1024x128_S2048x128_1_0_0_1_n_n.contr.Idx) :
    (dot_S2048x1024_S1024x128_S2048x128_1_0_0_1_n_n.rhsIdx i q 0).val = (q ⟨0, by decide⟩).val :=
  dot_S2048x1024_S1024x128_S2048x128_1_0_0_1_n_n.rhsIdx_val_of_single rfl i q

/-- The right operand's column is the output column. -/
theorem rhs_col (i : S2048x128.Idx) (q : dot_S2048x1024_S1024x128_S2048x128_1_0_0_1_n_n.contr.Idx) :
    (dot_S2048x1024_S1024x128_S2048x128_1_0_0_1_n_n.rhsIdx i q 1).val = (i 1).val := by
  unfold DotDims.rhsIdx
  rw [dif_neg (show ¬(1 : Fin S1024x128.rank) ∈ dot_S2048x1024_S1024x128_S2048x128_1_0_0_1_n_n.rhsBatch by decide), dif_pos (show (1 : Fin S1024x128.rank) ∈ dot_S2048x1024_S1024x128_S2048x128_1_0_0_1_n_n.rhsNonContracting by decide)]
  rfl

/-- The matrix product into a zero accumulator, at entry `(p, q)`: the sum over `k` of `A (p, k) · B (k, q)`. -/
theorem product_apply (A : FVec Ideal S2048x1024 .bf16) (B : FVec Ideal S1024x128 .bf16) (p : Fin 2048) (q : Fin 128) :
    FloatOps.matmul dot_S2048x1024_S1024x128_S2048x128_1_0_0_1_n_n none A B (constant S2048x128 .f32 0x00000000#32) (ix2 p q)
      = ∑ k : Fin 1024, A (ix2 p k) * B (ix2 k q) := by
  rw [Ideal.matmul_constant_zero_apply, ← Equiv.sum_comp (contrEquiv1 dot_S2048x1024_S1024x128_S2048x128_1_0_0_1_n_n 1024 rfl rfl).symm]
  refine Finset.sum_congr rfl fun k _ => ?_
  have hk := contrEquiv1_symm_val dot_S2048x1024_S1024x128_S2048x128_1_0_0_1_n_n 1024 rfl rfl k
  have el : dot_S2048x1024_S1024x128_S2048x128_1_0_0_1_n_n.lhsIdx (ix2 p q) ((contrEquiv1 dot_S2048x1024_S1024x128_S2048x128_1_0_0_1_n_n 1024 rfl rfl).symm k) = ix2 p k := funext fun a => Fin.ext (by
    match a with
    | ⟨0, _⟩ => exact lhs_row _ _
    | ⟨1, _⟩ => exact (lhs_col _ _).trans hk)
  have er : dot_S2048x1024_S1024x128_S2048x128_1_0_0_1_n_n.rhsIdx (ix2 p q) ((contrEquiv1 dot_S2048x1024_S1024x128_S2048x128_1_0_0_1_n_n 1024 rfl rfl).symm k) = ix2 k q := funext fun a => Fin.ext (by
    match a with
    | ⟨0, _⟩ => exact (rhs_row _ _).trans hk
    | ⟨1, _⟩ => exact rhs_col _ _)
  rw [el, er]

/-- The body's stored block is that product of its two loaded blocks: the two shape casts are to the same shape and
    the rounding to bf16 is the identity on the extended reals. -/
theorem stored_eq (A : Vec Ideal S2048x1024 .f32) (B : Vec Ideal S1024x128 .bf16) :
    k0_pay1 (F := Ideal) A B
      = FloatOps.matmul (φ₁ := .bf16) (φ₂ := .bf16) dot_S2048x1024_S1024x128_S2048x128_1_0_0_1_n_n none A B (constant S2048x128 .f32 0x00000000#32) := by
  unfold k0_pay1
  simp only [shapeCast_self]
  rfl

/-- The body's stored block at entry `(p, q)`. -/
theorem stored_apply (A : Vec Ideal S2048x1024 .f32) (B : Vec Ideal S1024x128 .bf16) (p : Fin 2048) (q : Fin 128) :
    k0_pay1 (F := Ideal) A B (ix2 p q) = ∑ k : Fin 1024, (A (ix2 p k) : EReal) * (B (ix2 k q) : EReal) := by
  rw [stored_eq]
  exact product_apply A B p q

end Cert.KernelIdeal.BlockProduct

end
-- ==== Proof.Folded.lean ====
/-
  The folded operands, read entry by entry.

  Before the kernel runs, the host lays two consecutive rows of `x` side by side (65536 x 512 becomes 32768 x 1024,
  the same row-major order) and builds from `W` (512 x 64) the 1024 x 128 matrix with `W` twice on the diagonal and
  zeros off it:

        [ W 0 ]
        [ 0 W ]

  This module names both as functions of `x` and `W` and reads them at an entry:
  * entry `(r, k)` of the paired rows is the entry of `x` with the same row-major position `1024 r + k`;
  * the upper-left and lower-right 512 x 64 blocks of the block-diagonal matrix are `W`, the other two are zero.
-/
import proofs.«100829_j57844619543085_2_alg».proof.Proof.Gen.KernelIdeal
import Idealize.ShloMosaic.Lib.Pipeline.Value
import Idealize.ShloMosaic.Lib.ValueIdx
import Idealize.ShloMosaic.PureOps.Ideal.Laws

noncomputable section

namespace Cert.KernelIdeal.Folded

open Cert.KernelIdeal Cert.KernelIdeal.Gen Idealize.ShloMosaic Idealize.ShloMosaic.ValueIdx

/-! ## Two rows of `x` side by side -/

/-- `x` with each pair of consecutive rows laid side by side. -/
def pairRows (x : S65536x512.Idx → EReal) : S32768x1024.Idx → EReal :=
  shapeCast S32768x1024 x shapeCasts_S65536x512_S32768x1024

/-- Entry `(r, k)` of the paired rows is entry `(b, j)` of `x` when the two have one row-major position. -/
theorem pairRows_apply (x : S65536x512.Idx → EReal) (r : Fin 32768) (k : Fin 1024) (b : Fin 65536) (j : Fin 512)
    (h : b.val * 512 + j.val = r.val * 1024 + k.val) : pairRows x (ix2 r k) = x (ix2 b j) := by
  unfold pairRows
  refine shapeCast_apply x shapeCasts_S65536x512_S32768x1024 (ix2 r k) (ix2 b j) ?_
  rw [Shape.rowMajor_val_two, Shape.rowMajor_val_two]
  exact h

/-! ## `W` twice on the diagonal -/

/-- The 512 x 64 block of zeros. -/
def zeroBlock : S512x64.Idx → EReal :=
  broadcastInDim S512x64 ![] bcast_S_S512x64 (constant (F := Ideal) S_ .f32 0x00000000#32)

theorem zeroBlock_apply (i : S512x64.Idx) : zeroBlock i = 0 := by
  show Ideal.ofBits .f32 0x00000000#32 = 0
  exact Ideal.ofBits_zero_f32

/-- The upper half `[W 0]`. -/
def upper (w : S512x64.Idx → EReal) : S512x128.Idx → EReal :=
  concatenate S512x128 1 [⟨S512x64, w⟩, ⟨S512x64, zeroBlock⟩] concatenates_S512x64_S512x64_S512x128_d1

/-- The lower half `[0 W]`. -/
def lower (w : S512x64.Idx → EReal) : S512x128.Idx → EReal :=
  concatenate S512x128 1 [⟨S512x64, zeroBlock⟩, ⟨S512x64, w⟩] concatenates_S512x64_S512x64_S512x128_d1

/-- The block-diagonal matrix: the upper half over the lower half. -/
def blockDiag (w : S512x64.Idx → EReal) : S1024x128.Idx → EReal :=
  concatenate S1024x128 0 [⟨S512x128, upper w⟩, ⟨S512x128, lower w⟩] concatenates_S512x128_S512x128_S1024x128_d0

theorem upper_left (w : S512x64.Idx → EReal) (j : Fin 512) (c : Fin 128) (o : Fin 64) (hc : c.val = o.val) :
    upper w (ix2 j c) = w (ix2 j o) := by
  unfold upper
  refine concatenate_pair_apply_left (1 : Fin 2) w zeroBlock concatenates_S512x64_S512x64_S512x128_d1 (ix2 j c) rfl (ix2 j o) ?_
  intro b
  match b with
  | ⟨0, _⟩ => rfl
  | ⟨1, _⟩ => exact hc.symm

theorem upper_right (w : S512x64.Idx → EReal) (j : Fin 512) (c : Fin 128) (hc : 64 ≤ c.val) :
    upper w (ix2 j c) = 0 := by
  unfold upper
  refine (concatenate_pair_apply_right (1 : Fin 2) w zeroBlock concatenates_S512x64_S512x64_S512x128_d1 (ix2 j c) rfl rfl
    (ix2 j (⟨c.val - 64, by omega⟩ : Fin 64)) ?_ ?_).trans (zeroBlock_apply _)
  · intro b hb
    match b with
    | ⟨0, _⟩ => rfl
    | ⟨1, _⟩ => exact absurd rfl hb
  · show c.val - 64 + 64 = c.val
    omega

theorem lower_left (w : S512x64.Idx → EReal) (j : Fin 512) (c : Fin 128) (hc : c.val < 64) :
    lower w (ix2 j c) = 0 := by
  unfold lower
  refine (concatenate_pair_apply_left (1 : Fin 2) zeroBlock w concatenates_S512x64_S512x64_S512x128_d1 (ix2 j c) rfl
    (ix2 j (⟨c.val, hc⟩ : Fin 64)) ?_).trans (zeroBlock_apply _)
  intro b
  match b with
  | ⟨0, _⟩ => rfl
  | ⟨1, _⟩ => rfl

theorem lower_right (w : S512x64.Idx → EReal) (j : Fin 512) (c : Fin 128) (o : Fin 64) (hc : c.val = 64 + o.val) :
    lower w (ix2 j c) = w (ix2 j o) := by
  unfold lower
  refine concatenate_pair_apply_right (1 : Fin 2) zeroBlock w concatenates_S512x64_S512x64_S512x128_d1 (ix2 j c) rfl rfl
    (ix2 j o) ?_ ?_
  · intro b hb
    match b with
    | ⟨0, _⟩ => rfl
    | ⟨1, _⟩ => exact absurd rfl hb
  · show o.val + 64 = c.val
    omega

/-- Rows below 512 of the block-diagonal matrix are the upper half. -/
theorem blockDiag_top (w : S512x64.Idx → EReal) (k : Fin 1024) (c : Fin 128) (j : Fin 512) (hk : k.val = j.val) :
    blockDiag w (ix2 k c) = upper w (ix2 j c) := by
  unfold blockDiag
  refine concatenate_pair_apply_left (0 : Fin 2) (upper w) (lower w) concatenates_S512x128_S512x128_S1024x128_d0 (ix2 k c) rfl (ix2 j c) ?_
  intro b
  match b with
  | ⟨0, _⟩ => exact hk.symm
  | ⟨1, _⟩ => rfl

/-- Rows from 512 on are the lower half. -/
theorem blockDiag_bottom (w : S512x64.Idx → EReal) (k : Fin 1024) (c : Fin 128) (j : Fin 512) (hk : k.val = 512 + j.val) :
    blockDiag w (ix2 k c) = lower w (ix2 j c) := by
  unfold blockDiag
  refine concatenate_pair_apply_right (0 : Fin 2) (upper w) (lower w) concatenates_S512x128_S512x128_S1024x128_d0 (ix2 k c) rfl rfl
    (ix2 j c) ?_ ?_
  · intro b hb
    match b with
    | ⟨0, _⟩ => exact absurd rfl hb
    | ⟨1, _⟩ => rfl
  · show j.val + 512 = k.val
    omega

end Cert.KernelIdeal.Folded

end
-- ==== Proof.WholeProduct.lean ====
/-
  From the sixteen blocks to the whole folded product.

  The kernel runs on a grid of 16 points. Point `t` reads rows `2048 t … 2048 t + 2047` of the paired rows `A`
  (all 1024 columns) and the whole block-diagonal matrix `B`, and writes rows `2048 t … 2048 t + 2047` of the
  32768 x 128 result. Each written block is the matching block of ONE function of `A` and `B`, the full product
  `(A · B) (r, c) = ∑ k, A (r, k) · B (k, c)`, and the sixteen row blocks cover the result; so after the run the
  result array holds `A · B`. What the region finds in `A` and `B` is what the host operations before it left there:
  the paired rows of `x` and the block-diagonal matrix of `W` (rounded to bf16, which changes nothing on the
  extended reals).
-/
import proofs.«100829_j57844619543085_2_alg».proof.Proof.Gen.KernelIdeal.Frame
import proofs.«100829_j57844619543085_2_alg».proof.Proof.BlockProduct
import proofs.«100829_j57844619543085_2_alg».proof.Proof.Folded
import Idealize.ShloMosaic.Lib.StableHlo.Run

set_option maxRecDepth 16384

noncomputable section

namespace Cert.KernelIdeal.WholeProduct

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The full product -/

/-- The 32768 x 128 product of a 32768 x 1024 and a 1024 x 128 matrix, entry by entry. -/
def prod (A : S32768x1024.Idx → EReal) (B : S1024x128.Idx → EReal) : S32768x128.Idx → EReal :=
  fun i => ∑ k : Fin 1024, A (ix2 (n0 := 32768) (i 0) k) * B (ix2 (n1 := 128) k (i 1))

theorem prod_apply (A : S32768x1024.Idx → EReal) (B : S1024x128.Idx → EReal) (r : Fin 32768) (c : Fin 128) :
    prod A B (ix2 r c) = ∑ k : Fin 1024, A (ix2 r k) * B (ix2 k c) := rfl

/-- A stored block's entry `(p, q)` is entry `(r, q)` of the full product, when row `p` of the loaded block of `A` is row
    `r` of `A` and the loaded block of `B` is `B`. -/
theorem stored_of_blocks (A : S32768x1024.Idx → EReal) (B : S1024x128.Idx → EReal)
    (A0 : Vec Ideal S2048x1024 .f32) (B0 : Vec Ideal S1024x128 .bf16) (p : Fin 2048) (q : Fin 128) (r : Fin 32768)
    (hA : ∀ k : Fin 1024, A0 (ix2 p k) = A (ix2 r k)) (hB : ∀ k : Fin 1024, B0 (ix2 k q) = B (ix2 k q)) :
    k0_pay1 (F := Ideal) A0 B0 (ix2 p q) = prod A B (ix2 r q) := by
  rw [BlockProduct.stored_apply, prod_apply]
  exact Finset.sum_congr rfl fun k _ => by rw [hA k, hB k]

/-! ## Which block each grid point reads and writes -/

theorem zero_offsets : (![0, 0] : Fin 2 → Nat) = fun _ => 0 := funext fun a => by fin_cases a <;> rfl

/-- The printed block indices, decided over the sixteen points: point `t` reads row block `t` of `A` and the one block
    of `B`, and writes row block `t` of the result. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 15 :=
  (by decide +kernel : ∀ t : Fin grid0.N, _)

/-- Every row block of the result is some point's. -/
theorem block_onto : ∀ q0 : Fin 16, ∃ t : Fin cfg0.N, win0_2.index t = ![q0.val, 0] :=
  (by decide +kernel : ∀ q0 : Fin 16, ∃ t : Fin grid0.N, win0_2.index t = ![q0.val, 0])

/-- WHAT POINT `t` WRITES BACK is block `t` of the full product of the two arrays as the region finds them. -/
theorem written_eq (c : Dev nD) (t : Fin cfg0.N) :
    (dats m 0 c).flushed 2 t = ((cfg0.win 2).blk t).view.read (Elt Ideal) (prod (V m c main_v0) (V m c main_v5)) := by
  show (cfg0.win 2).cut (grid0.coords t) ((dats m 0 c).after 2 t) = _
  rw [after0_2]
  unfold out0_2
  rw [View.canon_unit_zero zero_offsets]
  simp only [View.ld_unit_zero (S := S2048x1024) zero_offsets, View.ld_unit_zero (S := S1024x128) zero_offsets]
  obtain ⟨e0, e1, e2, e3, e4, e5⟩ := block_indices t
  funext j
  obtain ⟨p, q, rfl⟩ : ∃ (p : Fin 2048) (q : Fin 128), j = ix2 p q := ⟨j 0, j 1, eq_ix2 j⟩
  show k0_pay1 (F := Ideal) (iblk m c 0 t) (iblk m c 1 t) (ix2 p q)
    = prod (V m c main_v0) (V m c main_v5) (((cfg0.win 2).blk t).view.emb (ix2 p q))
  have hr : win0_2.index t (0 : Fin 2) * 2048 + p.val < 32768 := by omega
  have hemb : ((cfg0.win 2).blk t).view.emb (ix2 p q) = ix2 (⟨win0_2.index t (0 : Fin 2) * 2048 + p.val, hr⟩ : Fin 32768) q := by
    funext a; apply Fin.ext
    match a with
    | ⟨0, _⟩ => show win0_2.index t (0 : Fin 2) * 2048 + 1 * p.val = win0_2.index t (0 : Fin 2) * 2048 + p.val; omega
    | ⟨1, _⟩ => show win0_2.index t (1 : Fin 2) * 128 + 1 * q.val = q.val; omega
  rw [hemb]
  refine stored_of_blocks (V m c main_v0) (V m c main_v5) (iblk m c 0 t) (iblk m c 1 t) p q _ ?_ ?_
  · intro k
    show V m c main_v0 (((cfg0.win 0).blk t).view.emb (ix2 p k)) = _
    refine congrArg (V m c main_v0) ?_
    funext a; apply Fin.ext
    match a with
    | ⟨0, _⟩ => show win0_0.index t (0 : Fin 2) * 2048 + 1 * p.val = win0_2.index t (0 : Fin 2) * 2048 + p.val; omega
    | ⟨1, _⟩ => show win0_0.index t (1 : Fin 2) * 1024 + 1 * k.val = k.val; omega
  · intro k
    show V m c main_v5 (((cfg0.win 1).blk t).view.emb (ix2 k q)) = _
    refine congrArg (V m c main_v5) ?_
    funext a; apply Fin.ext
    match a with
    | ⟨0, _⟩ => show win0_1.index t (0 : Fin 2) * 1024 + 1 * k.val = k.val; omega
    | ⟨1, _⟩ => show win0_1.index t (1 : Fin 2) * 128 + 1 * q.val = q.val; omega

/-- An entry of the result is in point `t`'s block iff each coordinate is in the block's range on its axis. -/
theorem mem_block (t : Fin cfg0.N) (i : S32768x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v6).slice (win0_2.rect t)).set ↔ _
  rw [View.set_slice_whole, Rect.mem_set_unit]
  exact Iff.rfl

/-- Every entry of the result is in some writing point's block: row `r` is in the block of the point that writes row
    block `r / 2048`. -/
theorem covered (i : S32768x128.Idx) :
    ∃ t : Fin cfg0.N, (cfg0.win 2).flush t = true ∧ i ∈ ((cfg0.win 2).blk t).view.set := by
  have hi0 : (i 0).val < 32768 := (i 0).isLt
  have hi1 : (i 1).val < 128 := (i 1).isLt
  obtain ⟨t, ht⟩ := block_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 128 ≤ (i 1).val ∧ (i 1).val < win0_2.index t (1 : Fin 2) * 128 + 128; omega

/-- THE RESULT ARRAY after the run is the full product of the two arrays as the region finds them. -/
theorem result_eq (c : Dev nD) : (dats m 0 c).arrAt 2 cfg0.N = prod (V m c main_v0) (V m c main_v5) :=
  (dats m 0 c).arrAt_eq_of_cover 2 _ (fun t _ => written_eq m c t) covered

/-! ## What the region finds -/

/-- The first operand is the paired rows of `x`. -/
theorem found_rows (c : Dev nD) :
    (V m c main_v0 : S32768x1024.Idx → EReal) = Folded.pairRows (m ((c : Thread nD τ).loc main_arg0)) := by
  show StableHlo.after hostOps0 (fun b => m (c, b)) (Proc.devRef .tc main_v0) = _
  after_results
  rfl

/-- The second operand is the block-diagonal matrix of `W`. -/
theorem found_weights (c : Dev nD) :
    (V m c main_v5 : S1024x128.Idx → EReal) = Folded.blockDiag (m ((c : Thread nD τ).loc main_arg1)) := by
  show StableHlo.after hostOps0 (fun b => m (c, b)) (Proc.devRef .tc main_v5) = _
  after_results
  rfl

/-- THE RESULT ARRAY after the run, from the arguments. -/
theorem result_of_args (c : Dev nD) :
    (dats m 0 c).arrAt 2 cfg0.N
      = prod (Folded.pairRows (m ((c : Thread nD τ).loc main_arg0))) (Folded.blockDiag (m ((c : Thread nD τ).loc main_arg1))) := by
  rw [result_eq, found_rows, found_weights]

end Cert.KernelIdeal.WholeProduct

end
-- ==== Proof.Halves.lean ====
/-
  The one law that joins the two programs: a dot product against the block-diagonal matrix is a dot product
  against `W`.

  Row `r` of the paired rows is row `2r` of `x` followed by row `2r + 1`. Against column `c` of

        [ W 0 ]
        [ 0 W ]

  the sum over the 1024 positions splits into its first and its last 512 terms. For `c < 64` the last 512 terms are
  products with zero and the first 512 are row `2r` of `x` against column `c` of `W`; for `c ≥ 64` the first 512
  vanish and the last 512 are row `2r + 1` against column `c - 64`. Either way the sum is entry `(b, o)` of `x · W`
  for the `(b, o)` with `64 b + o = 128 r + c`. Only `a · 0 = 0` and `s + 0 = s` are used, which hold for every
  extended real, so nothing is asked of `x` and `W`.
-/
import proofs.«100829_j57844619543085_2_alg».proof.Proof.Folded

noncomputable section

namespace Cert.KernelIdeal.Folded

open Cert.KernelIdeal Cert.KernelIdeal.Gen Idealize.ShloMosaic Idealize.ShloMosaic.ValueIdx

/-- A sum over 1024 positions is the sum over the first 512 plus the sum over the last 512. -/
theorem sum_halves (f : Fin 1024 → EReal) :
    ∑ k : Fin 1024, f k = ∑ j : Fin 512, f ⟨j.val, by omega⟩ + ∑ j : Fin 512, f ⟨512 + j.val, by omega⟩ :=
  Fin.sum_univ_add (a := 512) (b := 512) f

/-- Row `r` of the paired rows against column `c` of the block-diagonal matrix is row `b` of `x` against column `o` of
    `W`, where `(b, o)` has the row-major position in 65536 x 64 that `(r, c)` has in 32768 x 128. -/
theorem folded_dot (x : S65536x512.Idx → EReal) (w : S512x64.Idx → EReal) (r : Fin 32768) (c : Fin 128)
    (b : Fin 65536) (o : Fin 64) (h : b.val * 64 + o.val = r.val * 128 + c.val) :
    ∑ k : Fin 1024, pairRows x (ix2 r k) * blockDiag w (ix2 k c) = ∑ j : Fin 512, x (ix2 b j) * w (ix2 j o) := by
  rw [sum_halves]
  by_cases hc : c.val < 64
  · have e1 : ∀ j : Fin 512, pairRows x (ix2 r (⟨j.val, by omega⟩ : Fin 1024)) * blockDiag w (ix2 (⟨j.val, by omega⟩ : Fin 1024) c)
        = x (ix2 b j) * w (ix2 j o) := fun j => by
      rw [pairRows_apply x r _ b j (by show b.val * 512 + j.val = r.val * 1024 + j.val; omega),
        blockDiag_top w _ c j rfl, upper_left w j c o (by omega)]
    have e2 : ∀ j : Fin 512, pairRows x (ix2 r (⟨512 + j.val, by omega⟩ : Fin 1024)) * blockDiag w (ix2 (⟨512 + j.val, by omega⟩ : Fin 1024) c)
        = 0 := fun j => by
      rw [blockDiag_bottom w _ c j rfl, lower_left w j c hc, mul_zero]
    simp only [e1, e2, Finset.sum_const_zero, add_zero]
  · have e1 : ∀ j : Fin 512, pairRows x (ix2 r (⟨j.val, by omega⟩ : Fin 1024)) * blockDiag w (ix2 (⟨j.val, by omega⟩ : Fin 1024) c)
        = 0 := fun j => by
      rw [blockDiag_top w _ c j rfl, upper_right w j c (by omega), mul_zero]
    have e2 : ∀ j : Fin 512, pairRows x (ix2 r (⟨512 + j.val, by omega⟩ : Fin 1024)) * blockDiag w (ix2 (⟨512 + j.val, by omega⟩ : Fin 1024) c)
        = x (ix2 b j) * w (ix2 j o) := fun j => by
      rw [pairRows_apply x r _ b j (by show b.val * 512 + j.val = r.val * 1024 + (512 + j.val); omega),
        blockDiag_bottom w _ c j rfl, lower_right w j c o (by omega)]
    simp only [e1, e2, Finset.sum_const_zero, zero_add]

end Cert.KernelIdeal.Folded

end
-- ==== Proof.Result.lean ====
/-
  The kernel's result is `x · W`.

  After the region the host reshapes the 32768 x 128 folded product back to 65536 x 64, keeping the row-major
  order: entry `(b, o)` of the result is entry `(r, c)` of the folded product with `128 r + c = 64 b + o`. By the law
  of the halves that entry is `∑ j, x (b, j) · W (j, o)`. So the run of the whole program ends with the result
  array at `x · W` of the arguments, and the arguments unchanged.
-/
import proofs.«100829_j57844619543085_2_alg».proof.Proof.WholeProduct
import proofs.«100829_j57844619543085_2_alg».proof.Proof.Halves

set_option maxRecDepth 16384

noncomputable section

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The matrix product `x · W`, entry by entry: the function both programs compute. -/
def product (x : S65536x512.Idx → EReal) (w : S512x64.Idx → EReal) : S65536x64.Idx → EReal :=
  fun i => ∑ j : Fin 512, x (ix2 (n0 := 65536) (i 0) j) * w (ix2 (n1 := 64) j (i 1))

/-- The folded product, reshaped back to 65536 x 64, is `x · W`. -/
theorem unfolded_eq (x : S65536x512.Idx → EReal) (w : S512x64.Idx → EReal) :
    shapeCast S65536x64 (WholeProduct.prod (Folded.pairRows x) (Folded.blockDiag w)) shapeCasts_S32768x128_S65536x64
      = product x w := by
  funext i
  obtain ⟨b, o, rfl⟩ : ∃ (b : Fin 65536) (o : Fin 64), i = ix2 b o := ⟨i 0, i 1, eq_ix2 i⟩
  have hb := b.isLt
  have ho := o.isLt
  refine (shapeCast_apply _ shapeCasts_S32768x128_S65536x64 (ix2 b o)
    (ix2 (⟨(b.val * 64 + o.val) / 128, by omega⟩ : Fin 32768) (⟨(b.val * 64 + o.val) % 128, by omega⟩ : Fin 128)) ?_).trans ?_
  · rw [Shape.rowMajor_val_two, Shape.rowMajor_val_two]
    show (b.val * 64 + o.val) / 128 * 128 + (b.val * 64 + o.val) % 128 = b.val * 64 + o.val
    omega
  · rw [WholeProduct.prod_apply]
    exact Folded.folded_dot x w _ _ b o
      (by show b.val * 64 + o.val = (b.val * 64 + o.val) / 128 * 128 + (b.val * 64 + o.val) % 128; omega)

/-- What the host operation after the region leaves in the program's result: the region's result array reshaped. -/
theorem tail_eq (c : Dev nD) :
    (Pipeline.afterTail₀ cfgs (dats m) 0 (V0 m) [hostOps1] c main_v7 : S65536x64.Idx → EReal)
      = shapeCast S65536x64 ((dats m 0 c).arrAt 2 cfg0.N) shapeCasts_S32768x128_S65536x64 := by
  unfold Pipeline.afterTail₀
  show StableHlo.after hostOps1 _ (Proc.devRef .tc main_v7) = _
  after_results
  exact congrArg (fun X : S32768x128.Idx → EReal => shapeCast S65536x64 X shapeCasts_S32768x128_S65536x64)
    (Pipeline.withArrays_arr spec0 launch0.win.arr_inj c (V0 m c) (fun w => (dats m 0 c).arrAt w cfg0.N) 2)

/-- The program's result after the run, from the arguments. -/
theorem value_eq (c : Dev nD) :
    (Pipeline.afterTail₀ cfgs (dats m) 0 (V0 m) [hostOps1] c main_v7 : S65536x64.Idx → EReal)
      = product (m ((c : Thread nD τ).loc main_arg0)) (m ((c : Thread nD τ).loc main_arg1)) := by
  rw [tail_eq, WholeProduct.result_of_args]
  exact unfolded_eq _ _

/-- THE RUN: every weakly fair execution of the idealized kernel's program terminates with its result at `x · W` of the
    arguments and the arguments unchanged. -/
theorem run : θ_run defs (onTc (τ := τ) (main (F := Ideal))) ⟨m, fun _ => 0, ρ⟩ fun r => ∀ c : Dev nD,
      r.2.mem ((c : Thread nD τ).loc main_v7) = product (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v7 (Pipeline.mem_restRefs_of main_v7 (by decide) (by decide))).trans (value_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Result

end
-- ==== Proof.lean ====
/-
  Both programs compute the matrix product `x · W` of a 65536 x 512 matrix `x` and a 512 x 64 matrix `W`.

  The reference is one host `dot_general`: entry `(b, o)` of its result is `∑ j, x (b, j) · W (j, o)`.

  The kernel's program computes the same matrix through a fold that makes its output rows 128 wide. The host lays
  each two consecutive rows of `x` side by side (32768 x 1024), builds the 1024 x 128 block-diagonal matrix with `W`
  twice on the diagonal and zeros off it, the kernel multiplies the two, row block by row block over a grid of
  sixteen points (rounding to bf16 on the way in, which is the identity on the extended reals), and the host
  reshapes the 32768 x 128 product back to 65536 x 64. Entry `(r, c)` of the folded product is a sum of 1024 terms,
  of which one half are products with an off-diagonal zero and the other half are the 512 terms of
  `∑ j, x (b, j) · W (j, o)` for the `(b, o)` with `64 b + o = 128 r + c` — which is where the reshape puts it.
  The law used is only `a · 0 = 0` and `s + 0 = s`, valid for every extended real, so the inputs' finiteness is
  never needed.

  The modules: `BlockProduct` (one grid point's stored block as a sum), `Folded` (the paired rows and the
  block-diagonal matrix, entry by entry), `Halves` (the law above), `WholeProduct` (the sixteen blocks cover the
  folded product; what the region finds in its operands), `Result` (the reshape back, and the kernel program's run
  with its result named). Here: the reference's result is the same function, and the five claims.
-/
import proofs.«100829_j57844619543085_2_alg».proof.Defs
import proofs.«100829_j57844619543085_2_alg».proof.Proof.Gen.Kernel
import proofs.«100829_j57844619543085_2_alg».proof.Proof.Gen.Kernel.Frame
import proofs.«100829_j57844619543085_2_alg».proof.Proof.Gen.KernelIdeal
import proofs.«100829_j57844619543085_2_alg».proof.Proof.Gen.KernelIdeal.Frame
import proofs.«100829_j57844619543085_2_alg».proof.Proof.Gen.ReferenceIdeal
import proofs.«100829_j57844619543085_2_alg».proof.Proof.Gen.ReferenceIdeal.Run
import proofs.«100829_j57844619543085_2_alg».proof.Proof.Gen.ReferenceIdeal.Read
import proofs.«100829_j57844619543085_2_alg».proof.Proof.Gen.Pre_finite_inputs
import proofs.«100829_j57844619543085_2_alg».proof.Proof.Result
import Idealize.ShloMosaic.Adequacy
import Idealize.ShloMosaic.Init

noncomputable section

open Idealize.ShloMosaic Idealize.ShloMosaic.TcCoe Idealize.SL.Sem Idealize.ShloMosaic.ValueIdx

/-! ## The reference's result is `x · W` -/

namespace Cert.ReferenceIdeal.RefValue

/-- The host's `dot_general` of `x` and `W`, entry by entry, is the sum the kernel's result was shown to be. -/
theorem result_eq (x : Cert.ReferenceIdeal.S65536x512.Idx → EReal) (w : Cert.ReferenceIdeal.S512x64.Idx → EReal) :
    Cert.ReferenceIdeal.Read.val_main_v0 (F := Ideal) x w = Cert.KernelIdeal.Result.product x w := by
  funext i
  obtain ⟨b, o, rfl⟩ : ∃ (b : Fin 65536) (o : Fin 64), i = ix2 b o := ⟨i 0, i 1, eq_ix2 i⟩
  rw [Cert.ReferenceIdeal.Read.val_main_v0_apply]
  refine Finset.sum_congr rfl fun k _ => ?_
  have el : Cert.ReferenceIdeal.Read.lidx_main_v0 (ix2 b o) k = ix2 b k :=
    funext fun a => Fin.ext (by match a with | ⟨0, _⟩ => rfl | ⟨1, _⟩ => rfl)
  have er : Cert.ReferenceIdeal.Read.ridx_main_v0 (ix2 b o) k = ix2 k o :=
    funext fun a => Fin.ext (by match a with | ⟨0, _⟩ => rfl | ⟨1, _⟩ => rfl)
  rw [el, er]

end Cert.ReferenceIdeal.RefValue

/-! ## The claims -/

namespace Cert.Proof

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read on the extended reals. -/
theorem preserves : Cert.preserves_Kernel_KernelIdeal := trivial

/-- From memories that agree on `x` and `W`, the kernel's program ends with its result at `x · W` and the reference
    with its result at the `dot_general` of `x` and `W`: one function of the arguments. -/
theorem algebraic : Cert.algebraic_KernelIdeal_ReferenceIdeal := by
  intro m ρ m' ρ' _ hagree
  refine ⟨fun c => Cert.KernelIdeal.Result.product
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v0_eq]
  exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
